-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x4096.size a
  hwx0_3 : ∀ i : grid0.Coords, EltTy.bits .f32 = 32 ∨ (Rect.block (s := S16384x4096) S512x1024.size (cc0_transform_3 i) (hinb0_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.AffineSpec.lean ====
/-
  The function both programs compute, stated once over the extended reals: an affine map applied to every row of
  `a`,
      out[r, c] = (Σ_{k < 4096} a[r, k] · w[k, c]) + b[c]          (r < 16384, c < 4096),
  with `a` of shape [16384, 4096], `w` of shape [4096, 4096] and `b` of shape [4096]. The sum runs over the one
  contracted axis in its natural order; nothing is said about how a program groups or tiles it, because a finite sum of
  extended reals does not depend on that. No law beyond this reading is needed to join the two programs: each of them
  computes exactly this sum of products and then adds `b[c]`, so finiteness of the inputs is never used.
-/
import Idealize.ShloMosaic.PureOps.Ideal
import Idealize.ShloMosaic.Lib.ValueIdx

noncomputable section

open scoped BigOperators

namespace Cert.Affine

open Idealize.ShloMosaic Idealize.ShloMosaic.ValueIdx

/-- Entry (r, c) of the affine image: row `r` of `a` against column `c` of `w`, plus `b` at `c`. -/
def entry (a : (⟨2, ![16384, 4096]⟩ : Shape).Idx → EReal) (w : (⟨2, ![4096, 4096]⟩ : Shape).Idx → EReal)
    (b : (⟨1, ![4096]⟩ : Shape).Idx → EReal) (r : Fin 16384) (c : Fin 4096) : EReal :=
  (∑ k : Fin 4096, a (ix2 r k) * w (ix2 k c)) + b (ix1 c)

/-- The whole [16384, 4096] array of those entries. -/
def image (a : (⟨2, ![16384, 4096]⟩ : Shape).Idx → EReal) (w : (⟨2, ![4096, 4096]⟩ : Shape).Idx → EReal)
    (b : (⟨1, ![4096]⟩ : Shape).Idx → EReal) : (⟨2, ![16384, 4096]⟩ : Shape).Idx → EReal :=
  fun i => entry a w b ⟨(i 0).val, idx2_lt0 i⟩ ⟨(i 1).val, idx2_lt1 i⟩

/-- At an index given by its coordinates the array reads the entry. -/
theorem image_ix2 (a : (⟨2, ![16384, 4096]⟩ : Shape).Idx → EReal) (w : (⟨2, ![4096, 4096]⟩ : Shape).Idx → EReal)
    (b : (⟨1, ![4096]⟩ : Shape).Idx → EReal) (r : Fin 16384) (c : Fin 4096) :
    image a w b (ix2 r c) = entry a w b r c := rfl

end Cert.Affine

end
-- ==== Proof.ReferenceAffine.lean ====
/-
  The reference computes the affine image. Its four operations are a `dot_general` contracting axis 1 of `a` with
  axis 0 of `w`, two broadcasts that spread `b` first to a row [1, 4096] and then down the 16384 rows, and an
  elementwise addition. Read at the index (r, c): the product is Σ_k a[r, k] · w[k, c], the broadcast reads b[c], and
  the addition is the extended reals' own.
-/
import proofs.«143780_j81243601371170_2_alg».proof.Proof.Gen.ReferenceIdeal.Read
import proofs.«143780_j81243601371170_2_alg».proof.Proof.AffineSpec

noncomputable section

open scoped BigOperators

namespace Cert.Affine

open Idealize.ShloMosaic Idealize.ShloMosaic.ValueIdx
open Cert.ReferenceIdeal Cert.ReferenceIdeal.Read

/-- The reference's last stage, as a function of the three argument arrays, is the affine image. -/
theorem reference_eq (x0 : (⟨S16384x4096, .f32⟩ : BufTy).Contents (Elt Ideal))
    (x1 : (⟨S4096x4096, .f32⟩ : BufTy).Contents (Elt Ideal)) (x2 : (⟨S4096, .f32⟩ : BufTy).Contents (Elt Ideal)) :
    val_main_v3 (F := Ideal) x0 x1 x2 = image x0 x1 x2 := by
  funext i
  obtain ⟨r, c, rfl⟩ : ∃ (r : Fin 16384) (c : Fin 4096), i = ix2 r c := ⟨i 0, i 1, eq_ix2 i⟩
  -- the operand indices the four stages read at (r, c)
  have el : ∀ k : Fin 4096, lidx_main_v0 (ix2 r c) k = ix2 r k := fun k =>
    funext fun a => by match a with | ⟨0, _⟩ => rfl | ⟨1, _⟩ => rfl
  have er : ∀ k : Fin 4096, ridx_main_v0 (ix2 r c) k = ix2 k c := fun k =>
    funext fun a => by match a with | ⟨0, _⟩ => rfl | ⟨1, _⟩ => rfl
  have eb : idx_main_v1 (idx_main_v2 (ix2 r c)) = ix1 c :=
    funext fun a => by match a with | ⟨0, _⟩ => rfl
  rw [val_main_v3_apply, val_main_v0_apply, val_main_v2_apply, val_main_v1_apply, image_ix2]
  simp only [el, er, eb]
  rfl

end Cert.Affine

end
-- ==== Proof.TileEntry.lean ====
/-
  One grid point of the kernel, read at one entry. The body takes a [512, 4096] tile `x` of the left matrix, a
  [4096, 1024] tile `y` of the right matrix and a [1, 1024] row `z` of the bias, rounds `x` to the narrower float format
  (the identity on extended reals), multiplies the two tiles into a zero accumulator over the full contracted axis of
  length 4096, spreads `z` down the 512 rows and adds. At the entry (p, q) of the [512, 1024] result that is
      (Σ_{k < 4096} x[p, k] · y[k, q]) + z[0, q]:
  the zero accumulator contributes `0 + ·`, the contraction index of the product is its one coordinate `k`, and the
  spread row reads its one row `0`.
-/
import proofs.«143780_j81243601371170_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Affine

open Idealize.ShloMosaic Idealize.ShloMosaic.ValueIdx
open Cert.KernelIdeal Cert.KernelIdeal.Gen

/-- The tile product's dimension numbers: axis 1 of the left tile is contracted with axis 0 of the right tile, the
    rows of the left and the columns of the right are kept, and there is no batch axis. -/
abbrev tileDot : DotDims S512x4096 S4096x1024 S512x1024 := dot_S512x4096_S4096x1024_S512x1024_1_0_0_1_n_n

/-- The left operand's index at result entry `i` and contraction index `s`: its row is the entry's row … -/
theorem tileDot_lhs_row (i : S512x1024.Idx) (s : tileDot.contr.Idx) : (tileDot.lhsIdx i s 0).val = (i 0).val := by
  unfold DotDims.lhsIdx
  rw [dif_neg (show ¬(0 : Fin S512x4096.rank) ∈ tileDot.lhsBatch by decide),
    dif_pos (show (0 : Fin S512x4096.rank) ∈ tileDot.lhsNonContracting by decide)]
  rfl
/-- … and its column is the contraction coordinate; -/
theorem tileDot_lhs_contr (i : S512x1024.Idx) (s : tileDot.contr.Idx) :
    (tileDot.lhsIdx i s 1).val = (s ⟨0, by decide⟩).val :=
  tileDot.lhsIdx_val_of_single rfl i s
/-- the right operand's row is the contraction coordinate … -/
theorem tileDot_rhs_contr (i : S512x1024.Idx) (s : tileDot.contr.Idx) :
    (tileDot.rhsIdx i s 0).val = (s ⟨0, by decide⟩).val :=
  tileDot.rhsIdx_val_of_single rfl i s
/-- … and its column is the entry's column. -/
theorem tileDot_rhs_col (i : S512x1024.Idx) (s : tileDot.contr.Idx) : (tileDot.rhsIdx i s 1).val = (i 1).val := by
  unfold DotDims.rhsIdx
  rw [dif_neg (show ¬(1 : Fin S4096x1024.rank) ∈ tileDot.rhsBatch by decide),
    dif_pos (show (1 : Fin S4096x1024.rank) ∈ tileDot.rhsNonContracting by decide)]
  rfl

/-- The product of two tiles into the zero accumulator, at entry (p, q): the sum over `k` of row `p` of the left
    against column `q` of the right. -/
theorem tile_product_apply (l : FVec Ideal S512x4096 .bf16) (r : FVec Ideal S4096x1024 .bf16) (p : Fin 512) (q : Fin 1024) :
    FloatOps.matmul tileDot none l r (constant (F := Ideal) S512x1024 .f32 0x00000000#32) (ix2 p q)
      = ∑ k : Fin 4096, l (ix2 p k) * r (ix2 k q) := by
  rw [Ideal.matmul_constant_zero_apply, ← Equiv.sum_comp (contrEquiv1 tileDot 4096 rfl rfl).symm]
  refine Finset.sum_congr rfl fun k _ => ?_
  have hk := contrEquiv1_symm_val tileDot 4096 rfl rfl k
  have el : tileDot.lhsIdx (ix2 p q) ((contrEquiv1 tileDot 4096 rfl rfl).symm k) = ix2 p k :=
    funext fun a => Fin.ext (by
      match a with
      | ⟨0, _⟩ => exact tileDot_lhs_row _ _
      | ⟨1, _⟩ => exact (tileDot_lhs_contr _ _).trans hk)
  have er : tileDot.rhsIdx (ix2 p q) ((contrEquiv1 tileDot 4096 rfl rfl).symm k) = ix2 k q :=
    funext fun a => Fin.ext (by
      match a with
      | ⟨0, _⟩ => exact (tileDot_rhs_contr _ _).trans hk
      | ⟨1, _⟩ => exact tileDot_rhs_col _ _)
  rw [el, er]

/-- The bias row spread down the rows of the tile reads, at (p, q), its entry (0, q). -/
theorem spread_row_apply (z : FVec Ideal S1x1024 .f32) (p : Fin 512) (q : Fin 1024) :
    broadcastTo S512x1024 z broadcasts_S1x1024_S512x1024 (ix2 p q) = z (ix2 (0 : Fin 1) q) :=
  broadcastTo_apply z broadcasts_S1x1024_S512x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- WHAT THE BODY STORES, at entry (p, q) of its [512, 1024] tile. -/
theorem stored_apply (x : FVec Ideal S512x4096 .f32) (y : FVec Ideal S4096x1024 .bf16) (z : FVec Ideal S1x1024 .f32)
    (p : Fin 512) (q : Fin 1024) :
    k0_pay1 (F := Ideal) x y z (ix2 p q) = (∑ k : Fin 4096, x (ix2 p k) * y (ix2 k q)) + z (ix2 (0 : Fin 1) q) := by
  unfold k0_pay1
  simp only [shapeCast_self]
  show FloatOps.matmul tileDot none (truncf .bf16 x bitsLt_bf16_f32) y (constant (F := Ideal) S512x1024 .f32 0x00000000#32) (ix2 p q)
      + broadcastTo S512x1024 z broadcasts_S1x1024_S512x1024 (ix2 p q) = _
  rw [tile_product_apply, spread_row_apply]
  rfl

end Cert.Affine

end
-- ==== Proof.TileOfImage.lean ====
/-
  A stored tile is a tile of the affine image. Suppose the [512, 4096] tile `x` is rows r0 … r0 + 511 of a matrix `A`,
  the [4096, 1024] tile `y` is columns c0 … c0 + 1023 of a matrix `W`, and the [1, 1024] row `z` is entries
  c0 … c0 + 1023 of a vector `b`. Then what the body stores at (p, q),
      (Σ_k x[p, k] · y[k, q]) + z[0, q]  =  (Σ_k A[r0 + p, k] · W[k, c0 + q]) + b[c0 + q],
  is entry (r0 + p, c0 + q) of the affine image of `A`, `W` and `b`: the contracted axis is whole in both tiles, so
  the sum is the same sum, term by term.
-/
import proofs.«143780_j81243601371170_2_alg».proof.Proof.AffineSpec
import proofs.«143780_j81243601371170_2_alg».proof.Proof.TileEntry

noncomputable section

open scoped BigOperators

namespace Cert.Affine

open Idealize.ShloMosaic Idealize.ShloMosaic.ValueIdx
open Cert.KernelIdeal Cert.KernelIdeal.Gen

theorem stored_is_entry (A : S16384x4096.Idx → EReal) (W : S4096x4096.Idx → EReal) (b : S4096.Idx → EReal)
    (x : FVec Ideal S512x4096 .f32) (y : FVec Ideal S4096x1024 .bf16) (z : FVec Ideal S1x1024 .f32)
    (r0 c0 : Nat) (hr : r0 + 512 ≤ 16384) (hc : c0 + 1024 ≤ 4096)
    (hx : ∀ (p : Fin 512) (k : Fin 4096), x (ix2 p k) = A (ix2 (⟨r0 + p.val, by omega⟩ : Fin 16384) k))
    (hy : ∀ (k : Fin 4096) (q : Fin 1024), y (ix2 k q) = W (ix2 k (⟨c0 + q.val, by omega⟩ : Fin 4096)))
    (hz : ∀ q : Fin 1024, z (ix2 (0 : Fin 1) q) = b (ix1 (⟨c0 + q.val, by omega⟩ : Fin 4096)))
    (p : Fin 512) (q : Fin 1024) :
    k0_pay1 (F := Ideal) x y z (ix2 p q)
      = entry A W b (⟨r0 + p.val, by omega⟩ : Fin 16384) (⟨c0 + q.val, by omega⟩ : Fin 4096) := by
  rw [stored_apply, hz]
  unfold entry
  exact congrArg (· + b (ix1 (⟨c0 + q.val, by omega⟩ : Fin 4096)))
    (Finset.sum_congr rfl fun k _ => by rw [hx, hy])

end Cert.Affine

end
-- ==== Proof.ArraysAsFound.lean ====
/-
  What the grid finds in the three arrays its input windows read. Before the grid starts, the program rounds the right
  matrix to the narrower float format and re-lays the bias vector [4096] as a one-row matrix [1, 4096]; the left matrix
  is passed as it is. On extended reals the rounding is the identity, and a re-laying keeps every element at its
  row-major position, which for a vector laid as one row is its own position. So the three arrays the windows read
  are, entry by entry, the three arguments.
-/
import proofs.«143780_j81243601371170_2_alg».proof.Proof.Gen.KernelIdeal.Frame
import Idealize.ShloMosaic.Lib.Pipeline.Value
import Idealize.ShloMosaic.Lib.ValueIdx
import Idealize.ShloMosaic.Lib.StableHlo.Run

noncomputable section

namespace Cert.Affine

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ)

/-- The right matrix as the grid finds it is the second argument, entry by entry. -/
theorem right_found (c : Dev nD) (i : S4096x4096.Idx) :
    (V m c main_v0 : S4096x4096.Idx → EReal) i = (m ((c : Thread nD τ).loc main_arg1) : S4096x4096.Idx → EReal) i := by
  have e : @Eq (S4096x4096.Idx → EReal) (V m c main_v0)
      (truncf (F := Ideal) (s := S4096x4096) .bf16 (m ((c : Thread nD τ).loc main_arg1)) bitsLt_bf16_f32) := by
    dsimp only [V, hostOps0]; after_results
  rw [e]; rfl

/-- The bias as the grid finds it, a one-row matrix: its entry (0, j) is entry `j` of the third argument. -/
theorem bias_found (c : Dev nD) (j : Fin 4096) :
    (V m c main_v1 : S1x4096.Idx → EReal) (ix2 (0 : Fin 1) j)
      = (m ((c : Thread nD τ).loc main_arg2) : S4096.Idx → EReal) (ix1 j) := by
  have e : @Eq (S1x4096.Idx → EReal) (V m c main_v1)
      (shapeCast S1x4096 (m ((c : Thread nD τ).loc main_arg2) : S4096.Idx → EReal) shapeCasts_S4096_S1x4096) := by
    dsimp only [V, hostOps0]; after_results; rfl
  rw [e]
  refine shapeCast_apply _ _ (ix2 (0 : Fin 1) j) (ix1 j) ?_
  rw [Shape.rowMajor_val_one, Shape.rowMajor_val_two]
  show j.val = 0 * 4096 + j.val
  omega

end Cert.Affine

end
-- ==== Proof.WholeArray.lean ====
/-
  From the grid's points to the whole result array. The grid has 4 × 32 points; at the point with coordinates (j, i)
  the kernel reads rows 512·i … 512·i + 511 of the left matrix (all 4096 columns), columns 1024·j … 1024·j + 1023 of
  the right matrix (all 4096 rows) and of the one-row bias, and writes back the [512, 1024] tile of the result whose
  corner is (512·i, 1024·j). By the tile lemma each written tile is that tile of the affine image of the three
  arguments (the arrays the windows read are the arguments, entry by entry). The 128 tiles are distinct and tile the
  [16384, 4096] result: entry (r, c) lies in the tile of the point with i = r / 512 and j = c / 1024. So after the run
  the result array IS the affine image.
-/
import proofs.«143780_j81243601371170_2_alg».proof.Proof.Gen.KernelIdeal.Value
import proofs.«143780_j81243601371170_2_alg».proof.Proof.AffineSpec
import proofs.«143780_j81243601371170_2_alg».proof.Proof.TileOfImage
import proofs.«143780_j81243601371170_2_alg».proof.Proof.ArraysAsFound

noncomputable section

open scoped BigOperators

namespace Cert.Affine

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The block indices of the four windows at a grid point, decided over the 128 points: the left tile moves with the
    result's row block and spans all columns; the right tile and the bias row move with the result's column block;
    the result's block indices range over 32 row blocks and 4 column blocks. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) < 32 ∧ win0_3.index t (1 : Fin 2) < 4 :=
  (by decide +kernel : ∀ t : Fin grid0.N, _)

/-- Every (row block, column block) pair is some point's. -/
theorem every_block : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- The affine image of the three arguments as launched, on core `c`. -/
abbrev result (c : Dev nD) : S16384x4096.Idx → EReal :=
  image (m ((c : Thread nD τ).loc main_arg0)) (m ((c : Thread nD τ).loc main_arg1)) (m ((c : Thread nD τ).loc main_arg2))

/-- WHAT POINT `t` WRITES BACK is its tile of the affine image. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S512x4096) zero_offsets, View.ld_unit_zero (S := S4096x1024) zero_offsets,
    View.ld_unit_zero (S := S1x1024) zero_offsets]
  obtain ⟨e0, e1, e2, e3, e4, e5, b0, b1⟩ := block_indices t
  funext j
  show k0_pay1 (F := Ideal) (iblk m c 0 t) (iblk m c 1 t) (iblk m c 2 t) j = result m c (((cfg0.win 3).blk t).view.emb j)
  obtain ⟨p, q, rfl⟩ : ∃ (p : Fin 512) (q : Fin 1024), j = ix2 p q := ⟨j 0, j 1, eq_ix2 j⟩
  -- the array index under entry (p, q) of the result's tile
  have hout : ((cfg0.win 3).blk t).view.emb (ix2 p q)
      = ix2 (⟨win0_3.index t (0 : Fin 2) * 512 + p.val, by omega⟩ : Fin 16384)
          (⟨win0_3.index t (1 : Fin 2) * 1024 + q.val, by omega⟩ : Fin 4096) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  rw [hout]
  refine (stored_is_entry (m ((c : Thread nD τ).loc main_arg0)) (m ((c : Thread nD τ).loc main_arg1))
    (m ((c : Thread nD τ).loc main_arg2)) (iblk m c 0 t) (iblk m c 1 t) (iblk m c 2 t)
    (win0_3.index t (0 : Fin 2) * 512) (win0_3.index t (1 : Fin 2) * 1024) (by omega) (by omega) ?_ ?_ ?_ p q).trans
    (image_ix2 _ _ _ _ _).symm
  · -- the left tile: rows of the first argument
    intro p k
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 4096 + 1 * k.val = k.val; omega
  · -- the right tile: columns of the second argument
    intro k q
    show V m c main_v0 (((cfg0.win 1).blk t).view.emb (ix2 k q)) = _
    refine (right_found m c _).trans ?_
    refine congrArg (m ((c : Thread nD τ).loc main_arg1)) (funext fun a => Fin.ext ?_)
    match a with
    | ⟨0, _⟩ => show win0_1.index t (0 : Fin 2) * 4096 + 1 * k.val = k.val; omega
    | ⟨1, _⟩ => show win0_1.index t (1 : Fin 2) * 1024 + 1 * q.val = win0_3.index t (1 : Fin 2) * 1024 + q.val; omega
  · -- the bias row: entries of the third argument
    intro q
    show V m c main_v1 (((cfg0.win 2).blk t).view.emb (ix2 (0 : Fin 1) q)) = _
    have hrow : ((cfg0.win 2).blk t).view.emb (ix2 (0 : Fin 1) q)
        = ix2 (0 : Fin 1) (⟨win0_3.index t (1 : Fin 2) * 1024 + q.val, by omega⟩ : Fin 4096) := by
      funext a; apply Fin.ext
      match a with
      | ⟨0, _⟩ => show win0_2.index t (0 : Fin 2) * 1 + 1 * 0 = 0; omega
      | ⟨1, _⟩ => show win0_2.index t (1 : Fin 2) * 1024 + 1 * q.val = win0_3.index t (1 : Fin 2) * 1024 + q.val; omega
    rw [hrow]
    exact bias_found m c _

/-- An index of the result array is in point `t`'s tile iff each coordinate is in the tile's range on its axis. -/
theorem mem_tile (t : Fin cfg0.N) (i : S16384x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2).slice (win0_3.rect t)).set ↔ _
  rw [View.set_slice_whole, Rect.mem_set_unit]
  exact Iff.rfl

/-- THE TILES COVER THE RESULT: entry (r, c) is in the tile of the point whose row block is r / 512 and whose column
    block is c / 1024, and that point writes its tile back. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := every_block ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE RESULT ARRAY after the run is the affine image of the arguments. -/
theorem final (c : Dev nD) : (dats m 0 c).arrAt 3 cfg0.N = result m c :=
  (dats m 0 c).arrAt_eq_of_cover 3 (result m c) (fun t _ => flushed_eq m c t) covered

/-- The kernel's run, read: every weakly fair execution ends with the result array at the affine image of the
    arguments and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Affine

end
-- ==== Proof.lean ====
/-
  A linear layer on 16384 rows: out = a · w + b with a of shape [16384, 4096], w of shape [4096, 4096] and b of shape
  [4096]. The kernel tiles the result into 32 × 4 tiles of [512, 1024]; for each tile it multiplies 512 whole rows of `a`
  (rounded to a narrower float format) by 1024 whole columns of `w` (rounded likewise before the grid starts) into a
  zero accumulator and adds the matching 1024 entries of `b`. The reference takes one product of the whole matrices and
  adds `b` spread over the rows.

  Over the extended reals a change of float format is the identity, so both programs compute, at every entry (r, c),
      (Σ_{k < 4096} a[r, k] · w[k, c]) + b[c].
  The contracted axis is never split, so each side's sum is this very sum in this very order; no rearrangement, no
  distributivity and no cancellation is used, and the inputs' finiteness is not needed for the equality.

  The proof: `Cert.Affine.image` states that function once; the reference's last stage is it
  (`Cert.Affine.reference_eq`); what one grid point stores is the matching tile of it (`Cert.Affine.stored_is_entry`,
  over the arrays the windows read, which are the arguments entry by entry); the 128 tiles cover the result, so the
  kernel's run ends with the result array at it (`Cert.Affine.run`). The three programs terminate without fault and
  leave their arguments unchanged; the idealization rewrote no operation, so there is nothing to preserve beyond the
  text itself.
-/
import proofs.«143780_j81243601371170_2_alg».proof.Defs
import proofs.«143780_j81243601371170_2_alg».proof.Proof.Gen.Kernel
import proofs.«143780_j81243601371170_2_alg».proof.Proof.Gen.Kernel.Skeleton
import proofs.«143780_j81243601371170_2_alg».proof.Proof.Gen.Kernel.Launch
import proofs.«143780_j81243601371170_2_alg».proof.Proof.Gen.Kernel.Points
import proofs.«143780_j81243601371170_2_alg».proof.Proof.Gen.Kernel.Frame
import proofs.«143780_j81243601371170_2_alg».proof.Proof.Gen.KernelIdeal
import proofs.«143780_j81243601371170_2_alg».proof.Proof.Gen.KernelIdeal.Skeleton
import proofs.«143780_j81243601371170_2_alg».proof.Proof.Gen.KernelIdeal.Launch
import proofs.«143780_j81243601371170_2_alg».proof.Proof.Gen.KernelIdeal.Points
import proofs.«143780_j81243601371170_2_alg».proof.Proof.Gen.KernelIdeal.Frame
import proofs.«143780_j81243601371170_2_alg».proof.Proof.Gen.ReferenceIdeal
import proofs.«143780_j81243601371170_2_alg».proof.Proof.Gen.Pre_finite_inputs
import proofs.«143780_j81243601371170_2_alg».proof.Proof.Gen.KernelIdeal.Value
import proofs.«143780_j81243601371170_2_alg».proof.Proof.Gen.ReferenceIdeal.Run
import proofs.«143780_j81243601371170_2_alg».proof.Proof.Gen.ReferenceIdeal.Read
import proofs.«143780_j81243601371170_2_alg».proof.Proof.ReferenceAffine
import proofs.«143780_j81243601371170_2_alg».proof.Proof.WholeArray
import Idealize.ShloMosaic.Adequacy
import Idealize.ShloMosaic.Init

noncomputable section

namespace Cert.Proof

open Idealize.ShloMosaic Idealize.SL.Sem

/-- The kernel as printed terminates without fault and leaves its arguments unchanged. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel ends with its result at the affine image of its
    arguments and the reference with its result at the affine image of its own: the same array. -/
theorem algebraic : Cert.algebraic_KernelIdeal_ReferenceIdeal := by
  intro m ρ m' ρ' _ hagree
  refine ⟨_, Cert.Affine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Affine.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
